-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  transposes_S4096x4096_S4096x4096_1_0 : S4096x4096.Transposes [1, 0] S4096x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What the kernel body leaves behind at a grid point, in each of its three control cases, as values.

  The body keeps a 1024 x 1024 accumulator between grid points. At the first step of a run along the contraction
  axis it stores the zero block into the accumulator and then stores the accumulation step taken from that zero
  block; at every later step it stores the accumulation step taken from what the step before left; and at the last
  step of the run it also copies the accumulator, as just stored, into the output block. Each such store covers
  the whole buffer through the rectangle at offset zero, so what the buffer holds afterwards is the last store's
  value, and a whole-buffer load after a whole-buffer store reads that store's value.
-/
import proofs.«125861_j28080496181413_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offset of every access of the body: the buffer's origin. -/
theorem hz : (![0, 0] : Fin 2 → Nat) = fun _ => 0 := funext fun a => by fin_cases a <;> rfl

/-- First step of a run: the accumulator ends at the accumulation step taken from the zero block. -/
theorem scratch_first (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .bf16) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle step: the accumulator ends at the accumulation step taken from what the step before left. -/
theorem scratch_middle (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .bf16) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg6.read_unread, View.ld_unit_zero (S := S1024x1024) hz]

/-- The last step: the accumulator ends, again, at the accumulation step taken from what the step before left, … -/
theorem scratch_last (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .bf16) (xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S1024x1024) hz]
  simp only [View.readAt_eq_ld, harg3.read_unread, harg4.read_unread, harg6.read_unread, View.ld_unit_zero (S := S1024x1024) hz]

/-- … and the output block receives that same value: the accumulator read back after its store. -/
theorem out_last (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .bf16) (xs0 : Vec F S1024x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1024x1024) hz, View.readCov_unit_zero (S := S1024x1024) _ hz]
  simp only [View.readAt_eq_ld, harg3.read_unread, harg4.read_unread, harg6.read_unread, View.ld_unit_zero (S := S1024x1024) hz]

end Cert.KernelIdeal.Pieces

end
-- ==== Proof.Payload.lean ====
/-
  The two values the kernel body stores into its accumulator, read at an index over the extended reals.

  The reset value is the zero block. The accumulation step stores, at row r and column c of the 1024 x 1024 block,
  the accumulator's entry there plus the contraction, over the 1024 positions k of the block's inner axis, of the
  left block's entry (r, k) times the right block's entry (k, c): the matrix unit's product into a zero
  accumulator is that sum, the narrowing of the left block to the 16-bit format is the identity on extended reals,
  and the shape casts between equal shapes are the identity.
-/
import proofs.«125861_j28080496181413_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The left operand's index at output index j and contraction position q: row j 0, … -/
theorem lhs_row (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- … column q. -/
theorem lhs_col (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q

/-- The right operand's index there: row q, … -/
theorem rhs_row (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q

/-- … column j 1. -/
theorem rhs_col (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product of a left block and a right block at row r, column c: the contraction over the inner axis. -/
def blockDot (x : FVec Ideal S1024x1024 .f32) (w : FVec Ideal S1024x1024 .bf16) (j : S1024x1024.Idx) : EReal :=
  ∑ k : Fin 1024, x (ix2 (j 0) k) * w (ix2 k (j 1))

/-- At row r and column c. -/
theorem blockDot_apply (x : FVec Ideal S1024x1024 .f32) (w : FVec Ideal S1024x1024 .bf16) (r c : Fin 1024) :
    blockDot x w (ix2 r c) = ∑ k : Fin 1024, x (ix2 r k) * w (ix2 k c) := rfl

/-- The matrix unit's product of the two blocks into a zero accumulator is, entry by entry, that contraction. -/
theorem matmul_zero_apply (x : FVec Ideal S1024x1024 .bf16) (w : FVec Ideal S1024x1024 .bf16) (j : S1024x1024.Idx) :
    matmul (F := Ideal) dot_S1024x1024_S1024x1024_S1024x1024_1_0_0_1_n_n none x w (constant S1024x1024 .f32 0x00000000#32) j
      = ∑ k : Fin 1024, x (ix2 (j 0) k) * w (ix2 k (j 1)) := by
  simp only [matmul]
  rw [Ideal.matmul_constant_zero_apply,
    ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx j
      ((ValueIdx.contrEquiv1 dot_S1024x1024_S1024x1024_S1024x1024_1_0_0_1_n_n 1024 rfl rfl).symm k) = ix2 (j 0) k :=
    funext fun a => Fin.ext (by
      match a with
      | ⟨0, _⟩ => exact lhs_row _ _
      | ⟨1, _⟩ => exact (lhs_col _ _).trans hk)
  have er : dot_S1024x1024_S1024x1024_S1024x1024_1_0_0_1_n_n.rhsIdx j
      ((ValueIdx.contrEquiv1 dot_S1024x1024_S1024x1024_S1024x1024_1_0_0_1_n_n 1024 rfl rfl).symm k) = ix2 k (j 1) :=
    funext fun a => Fin.ext (by
      match a with
      | ⟨0, _⟩ => exact (rhs_row _ _).trans hk
      | ⟨1, _⟩ => exact rhs_col _ _)
  rw [el, er]
  rfl

/-- The reset value is zero at every index. -/
theorem reset_apply (j : S1024x1024.Idx) : k0_pay1 (F := Ideal) j = 0 := by
  unfold k0_pay1
  rw [shapeCast_self]
  show Ideal.ofBits .f32 0x00000000#32 = 0
  exact Ideal.ofBits_zero_f32

/-- The accumulation step at an index: the accumulator's entry plus the blocks' product there. -/
theorem step_apply (x : Vec Ideal S1024x1024 .f32) (w : Vec Ideal S1024x1024 .bf16) (acc : Vec Ideal S1024x1024 .f32)
    (j : S1024x1024.Idx) : k0_pay2 (F := Ideal) x w acc j = acc j + blockDot x w j := by
  unfold k0_pay2
  rw [shapeCast_self, shapeCast_self]
  show acc j + matmul (F := Ideal) dot_S1024x1024_S1024x1024_S1024x1024_1_0_0_1_n_n none
      (truncf .bf16 x bitsLt_bf16_f32) w (constant S1024x1024 .f32 0x00000000#32) j = _
  rw [matmul_zero_apply]
  rfl

end Cert.KernelIdeal.Payload

end
-- ==== Proof.Accumulate.lean ====
/-
  What the accumulator holds after each grid point, and what each write-back writes.

  Each grid point adds to the accumulator the product of the two blocks its windows hold (its addend). The grid walks
  the contraction axis innermost, in runs of four consecutive points 4q, 4q + 1, 4q + 2, 4q + 3; the first point of a
  run starts from the zero block and each later one from what the point before left, so after point 4q + j the
  accumulator holds, entry by entry, zero plus the sum of the addends of points 4q … 4q + j. The last point of a run
  copies the accumulator into the output block, which is then written back: the block written back at point 4q + 3
  is zero plus the sum of the run's four addends.
-/
import proofs.«125861_j28080496181413_2_alg».proof.Proof.Gen.KernelIdeal.Value
import proofs.«125861_j28080496181413_2_alg».proof.Proof.Pieces
import proofs.«125861_j28080496181413_2_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen

variable (m : (ℓ : Loc nD τ sig) → Buf (Elt Ideal) ℓ)

/-- Point n's addend: the product of the blocks its two input windows hold (zero past the grid, where it is never used). -/
def addend (c : Dev nD) (n : ℕ) (j : S1024x1024.Idx) : EReal :=
  if h : n < cfg0.N then Payload.blockDot (iblk m c 0 ⟨n, h⟩) (iblk m c 1 ⟨n, h⟩) j else 0

theorem addend_of_lt (c : Dev nD) (n : ℕ) (h : n < cfg0.N) (j : S1024x1024.Idx) :
    addend m c n j = Payload.blockDot (iblk m c 0 ⟨n, h⟩) (iblk m c 1 ⟨n, h⟩) j := by
  unfold addend
  rw [dif_pos h]

/-- The first point of a run leaves zero plus its addend, whatever the accumulator held. -/
theorem first_step (c : Dev nD) (n : ℕ) (hb : n < cfg0.N) (acc : Vec Ideal S1024x1024 .f32) (j : S1024x1024.Idx)
    (h0 : n % 4 = 0) : Value.scAt0_0 m c n hb acc j = 0 + addend m c n j := by
  have h1 : ¬n % 4 = 3 := by omega
  unfold Value.scAt0_0
  rw [dif_pos h0, dif_neg h1]
  refine (congrFun (Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
    ((hcond0_0 (⟨n, hb⟩ : Fin cfg0.N)).mpr h0) (fun h => h1 ((hcond0_1 (⟨n, hb⟩ : Fin cfg0.N)).mp h))
    (iblk m c 0 (⟨n, hb⟩ : Fin cfg0.N)) (iblk m c 1 (⟨n, hb⟩ : Fin cfg0.N))) j).trans ?_
  refine (Payload.step_apply (iblk m c 0 (⟨n, hb⟩ : Fin cfg0.N)) (iblk m c 1 (⟨n, hb⟩ : Fin cfg0.N)) (k0_pay1 (F := Ideal)) j).trans ?_
  rw [Payload.reset_apply, addend_of_lt m c n hb]

/-- Every later point of a run leaves what the point before left plus its addend. -/
theorem later_step (c : Dev nD) (n : ℕ) (hb : n < cfg0.N) (acc : Vec Ideal S1024x1024 .f32) (j : S1024x1024.Idx)
    (h0 : ¬n % 4 = 0) : Value.scAt0_0 m c n hb acc j = acc j + addend m c n j := by
  unfold Value.scAt0_0
  by_cases h1 : n % 4 = 3
  · rw [dif_neg h0, dif_pos h1]
    refine (congrFun (Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
      (fun h => h0 ((hcond0_0 (⟨n, hb⟩ : Fin cfg0.N)).mp h)) ((hcond0_1 (⟨n, hb⟩ : Fin cfg0.N)).mpr h1)
      (iblk m c 0 (⟨n, hb⟩ : Fin cfg0.N)) (iblk m c 1 (⟨n, hb⟩ : Fin cfg0.N)) acc) j).trans ?_
    refine (Payload.step_apply (iblk m c 0 (⟨n, hb⟩ : Fin cfg0.N)) (iblk m c 1 (⟨n, hb⟩ : Fin cfg0.N)) acc j).trans ?_
    rw [addend_of_lt m c n hb]
  · rw [dif_neg h0, dif_neg h1]
    refine (congrFun (Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
      (fun h => h0 ((hcond0_0 (⟨n, hb⟩ : Fin cfg0.N)).mp h)) (fun h => h1 ((hcond0_1 (⟨n, hb⟩ : Fin cfg0.N)).mp h))
      (iblk m c 0 (⟨n, hb⟩ : Fin cfg0.N)) (iblk m c 1 (⟨n, hb⟩ : Fin cfg0.N)) acc) j).trans ?_
    refine (Payload.step_apply (iblk m c 0 (⟨n, hb⟩ : Fin cfg0.N)) (iblk m c 1 (⟨n, hb⟩ : Fin cfg0.N)) acc j).trans ?_
    rw [addend_of_lt m c n hb]

/-- After point t the accumulator holds zero plus the addends of its run's points up to t. -/
theorem accumulator_apply (c : Dev nD) (t : Fin cfg0.N) (j : S1024x1024.Idx) :
    (outsAt0 m c t.val t.isLt).2 j
      = 0 + ∑ s ∈ Finset.range (t.val % 4 + 1), addend m c (4 * (t.val / 4) + s) j := by
  rw [Value.soutsAt0_0_eq m c t]
  exact Pipeline.accAt_add_apply (fun n h => Value.scAt0_0 m c n h (VS0_0.read (Elt Ideal) VS0_0.junk))
    (Value.scAt0_0 m c) (fun _ => (0 : EReal)) (addend m c) (4 * (t.val / 4)) 3
    (fun h i => first_step m c (4 * (t.val / 4)) h _ i (by omega))
    (fun n h acc i h1 h2 => later_step m c n h acc i (by omega))
    (t.val % 4) (by omega) _ j

/-- At the last point of a run the output block receives the accumulator. -/
theorem output_eq_accumulator (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  exact (Pieces.out_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h3) (iblk m c 0 t) (iblk m c 1 t)
      (outsAt0 m c (t.val - 1) (Nat.lt_of_le_of_lt (Nat.sub_le _ _) t.isLt)).2).trans
    (Pieces.scratch_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h3) (iblk m c 0 t) (iblk m c 1 t)
      (outsAt0 m c (t.val - 1) (Nat.lt_of_le_of_lt (Nat.sub_le _ _) t.isLt)).2).symm

/-- So what the last point of a run writes back is, entry by entry, zero plus the run's four addends. -/
theorem written_back_apply (c : Dev nD) (t : Fin cfg0.N) (h3 : t.val % 4 = 3) (j : S1024x1024.Idx) :
    ((dats m 0 c).flushed 2 t : S1024x1024.Idx → EReal) j
      = 0 + ∑ s ∈ Finset.range 4, addend m c (4 * (t.val / 4) + s) j := by
  rw [Value.flushed2 m c t]
  show (outsAt0 m c t.val t.isLt).1 j = _
  rw [output_eq_accumulator m c t h3, accumulator_apply m c t j, h3]

end Cert.KernelIdeal.Accumulate

end
-- ==== Proof.BlockReads.lean ====
/-
  What the kernel's two input windows hold at a grid point, entry by entry, in terms of the argument arrays.

  The grid has 8 x 4 x 4 points; point number t stands for the row block t / 16 of x, the column block (t / 4) % 4 of
  the result and the step t % 4 along the contraction axis. The left window's block at t is rows
  [1024 (t / 16), 1024 (t / 16) + 1024) and columns [1024 (t % 4), 1024 (t % 4) + 1024) of x. The right window does not
  read the weight matrix itself but the array the host prepared from it before the launch: the weights rounded to the
  nearest integer, reduced to their sign, transposed, and narrowed to the 16-bit format (the identity on extended
  reals). Its entry (K, O) is therefore the sign matrix's entry (O, K); the right window's block at t is rows
  [1024 (t % 4), …) and columns [1024 ((t / 4) % 4), …) of that array.
-/
import proofs.«125861_j28080496181413_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.BlockReads

open Cert.KernelIdeal Cert.KernelIdeal.Gen

variable (m : (ℓ : Loc nD τ sig) → Buf (Elt Ideal) ℓ)

/-- The three windows' block indices at point t, decided over the grid. -/
theorem block_indices : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- The sign matrix: the weights rounded to the nearest integer (ties to even), then reduced to their sign. -/
abbrev signs (c : Dev nD) : S4096x4096.Idx → EReal :=
  Host.sign (F := Ideal) (φ := .f32) (Host.roundeven (F := Ideal) (φ := .f32) (m ((c : Thread nD τ).loc main_arg1)))

/-- The array the right window reads, as the region finds it: the sign matrix transposed (and narrowed). -/
theorem prepared_weights (c : Dev nD) : (V m c main_v3 : S4096x4096.Idx → EReal)
    = truncf (F := Ideal) .bf16 (transpose S4096x4096 [1, 0] (signs m c) transposes_S4096x4096_S4096x4096_1_0) bitsLt_bf16_f32 := by
  dsimp only [Gen.V]
  simp only [Gen.hostOps0, Gen.hostOps0_1, List.flatten_cons, List.flatten_nil, List.append_nil, List.cons_append,
    List.nil_append]
  after_results
  rfl

/-- Its entry (K, O) is the sign matrix's entry (O, K). -/
theorem prepared_weights_apply (c : Dev nD) (K O : Fin 4096) :
    (V m c main_v3 : S4096x4096.Idx → EReal) (ix2 K O) = signs m c (ix2 O K) := by
  rw [prepared_weights]
  exact ValueIdx.transpose_ix2_apply (signs m c) transposes_S4096x4096_S4096x4096_1_0 K O

/-- The left window's block at point t, at (r, k): x at row (its block row) * 1024 + r, column (its block column) * 1024 + k. -/
theorem left_block_apply (c : Dev nD) (t : Fin cfg0.N) (r k : Fin 1024) (R : Fin 8192) (K : Fin 4096)
    (hR : R.val = win0_0.index t (0 : Fin 2) * 1024 + r.val) (hK : K.val = win0_0.index t (1 : Fin 2) * 1024 + k.val) :
    (iblk m c 0 t : S1024x1024.Idx → EReal) (ix2 r k)
      = (m ((c : Thread nD τ).loc main_arg0) : S8192x4096.Idx → EReal) (ix2 R K) := by
  unfold iblk
  rw [View.read_apply]
  show V m c main_arg0 _ = _
  rw [V_main_arg0 m c]
  refine congrArg (m ((c : Thread nD τ).loc main_arg0)) (funext fun a => Fin.ext ?_)
  match a with
  | ⟨0, _⟩ => show win0_0.index t (0 : Fin 2) * 1024 + 1 * r.val = R.val; omega
  | ⟨1, _⟩ => show win0_0.index t (1 : Fin 2) * 1024 + 1 * k.val = K.val; omega

/-- The right window's block at point t, at (k, o): the sign matrix at row (block column) * 1024 + o, column
    (block row) * 1024 + k. -/
theorem right_block_apply (c : Dev nD) (t : Fin cfg0.N) (k o : Fin 1024) (K O : Fin 4096)
    (hK : K.val = win0_1.index t (0 : Fin 2) * 1024 + k.val) (hO : O.val = win0_1.index t (1 : Fin 2) * 1024 + o.val) :
    (iblk m c 1 t : S1024x1024.Idx → EReal) (ix2 k o) = signs m c (ix2 O K) := by
  rw [← prepared_weights_apply m c K O]
  unfold iblk
  rw [View.read_apply]
  show V m c main_v3 _ = V m c main_v3 _
  refine congrArg (V m c main_v3) (funext fun a => Fin.ext ?_)
  match a with
  | ⟨0, _⟩ => show win0_1.index t (0 : Fin 2) * 1024 + 1 * k.val = K.val; omega
  | ⟨1, _⟩ => show win0_1.index t (1 : Fin 2) * 1024 + 1 * o.val = O.val; omega

end Cert.KernelIdeal.BlockReads

end
-- ==== Proof.LibBlockSum.lean ====
/-
  A finite sum over n·b consecutive indices regroups into n consecutive blocks of b indices each: the sum over K below
  n·b of f K is the sum over t below n of the sum over k below b of f (t·b + k). The indices below n·b are exactly the
  numbers t·b + k with t below n and k below b, each once, so the two sums have the same terms; addition being
  commutative and associative, their order and grouping do not matter. This holds in any additive commutative monoid —
  the extended reals among them, where no finiteness of the terms is needed.

  It is what lets a contraction over a long axis that a kernel walks block by block, adding each block's partial
  contraction to an accumulator, be read as the one contraction over the whole axis.
-/
import Mathlib.Algebra.BigOperators.Fin
import Mathlib.Data.Fintype.BigOperators

namespace Cert.LibBlockSum

/-- The k-th index of the t-th block of b indices lies below n·b. -/
theorem block_lt {n b : ℕ} (t : Fin n) (k : Fin b) : t.val * b + k.val < n * b :=
  calc t.val * b + k.val < t.val * b + b := Nat.add_lt_add_left k.isLt _
    _ = (t.val + 1) * b := (Nat.succ_mul _ _).symm
    _ ≤ n * b := Nat.mul_le_mul_right b t.isLt

/-- A sum over n·b consecutive indices is the sum, over the n consecutive blocks of b indices, of each block's sum. -/
theorem sum_blocks {M : Type*} [AddCommMonoid M] (n b : ℕ) (f : Fin (n * b) → M) :
    ∑ K : Fin (n * b), f K = ∑ t : Fin n, ∑ k : Fin b, f ⟨t.val * b + k.val, block_lt t k⟩ := by
  rw [← Fintype.sum_prod_type' (fun (t : Fin n) (k : Fin b) => f ⟨t.val * b + k.val, block_lt t k⟩)]
  refine (Fintype.sum_equiv finProdFinEquiv _ _ fun p => ?_).symm
  refine congrArg f (Fin.ext ?_)
  show p.1.val * b + p.2.val = p.2.val + b * p.1.val
  rw [Nat.mul_comm, Nat.add_comm]

/-- The same for a function of the natural number t·b + k that does not read the bound's proof: the sum over K below N of
    g K, where N is n·b, is the sum over the blocks. -/
theorem sum_blocks_of_eq {M : Type*} [AddCommMonoid M] {N : ℕ} (n b : ℕ) (hN : N = n * b) (f : Fin N → M) :
    ∑ K : Fin N, f K = ∑ t : Fin n, ∑ k : Fin b, f ⟨t.val * b + k.val, hN ▸ block_lt t k⟩ := by
  subst hN
  exact sum_blocks n b f

end Cert.LibBlockSum
-- ==== Proof.TernaryLinear.lean ====
/-
  The function both programs compute, and the one law that joins them.

  For a matrix x of 8192 rows and 4096 columns and a matrix s of 4096 rows and 4096 columns, the layer's result at
  row t and column o is the contraction  sum over i below 4096 of x(t, i) * s(o, i):  the rows of x against the rows
  of s (s is the weight matrix rounded to the nearest integer and then reduced to its sign, entries in {-1, 0, 1},
  but nothing here depends on that).

  The contraction axis of 4096 positions splits into 4 consecutive blocks of 1024 positions. The contraction is the
  sum, over the 4 blocks, of each block's partial contraction: the same terms, regrouped. Addition of extended reals
  is commutative and associative, so this needs no finiteness of the entries.
-/
import proofs.«125861_j28080496181413_2_alg».proof.Proof.LibBlockSum
import Idealize.ShloMosaic.Lib.ValueIdx
import Idealize.ShloMosaic.PureOps.Ideal

noncomputable section

open Idealize.ShloMosaic Idealize.ShloMosaic.ValueIdx

namespace Cert.TernaryLinear

/-- The shape of x and of the result: 8192 rows, 4096 columns. -/
abbrev SX : Shape := ⟨2, ![8192, 4096]⟩
/-- The shape of s: 4096 rows, 4096 columns. -/
abbrev SW : Shape := ⟨2, ![4096, 4096]⟩

/-- The layer: at (t, o), the contraction of row t of x against row o of s. -/
def linearT (x : SX.Idx → EReal) (s : SW.Idx → EReal) : SX.Idx → EReal :=
  fun i => ∑ k : Fin 4096, x (ix2 (i 0) k) * s (ix2 (i 1) k)

/-- Position k of block b of the contraction axis. -/
abbrev pos (b : Fin 4) (k : Fin 1024) : Fin 4096 := ⟨b.val * 1024 + k.val, Cert.LibBlockSum.block_lt (n := 4) b k⟩

/-- The contraction is the sum of the four blocks' partial contractions. -/
theorem linearT_blocks (x : SX.Idx → EReal) (s : SW.Idx → EReal) (i : SX.Idx) :
    linearT x s i = ∑ b : Fin 4, ∑ k : Fin 1024, x (ix2 (i 0) (pos b k)) * s (ix2 (i 1) (pos b k)) :=
  Cert.LibBlockSum.sum_blocks_of_eq 4 1024 rfl fun K : Fin 4096 => x (ix2 (i 0) K) * s (ix2 (i 1) K)

end Cert.TernaryLinear

end
-- ==== Proof.Result.lean ====
/-
  The kernel's result array after the run is the layer.

  The block written back at the last point t of a run (t % 4 = 3) is, at (r, o), zero plus the sum over the run's four
  points of their addends. The addend of the run's point number b is the contraction, over the 1024 positions of block
  b of the contraction axis, of x at row 1024 (t / 16) + r against the sign matrix at row 1024 ((t / 4) % 4) + o. The
  four partial contractions add up to the whole contraction (regrouping a sum), which is the layer at the array index
  that the window's block places (r, o) at. The 32 written-back blocks tile the array: row R, column O lies in the
  block of point 16 (R / 1024) + 4 (O / 1024) + 3.
-/
import proofs.«125861_j28080496181413_2_alg».proof.Proof.Accumulate
import proofs.«125861_j28080496181413_2_alg».proof.Proof.BlockReads
import proofs.«125861_j28080496181413_2_alg».proof.Proof.TernaryLinear

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.TernaryLinear

variable (m : (ℓ : Loc nD τ sig) → Buf (Elt Ideal) ℓ) (ρ : Dev nD → PrngReg)

/-- x as launched. -/
abbrev xs (c : Dev nD) : S8192x4096.Idx → EReal := m ((c : Thread nD τ).loc main_arg0)

/-- The layer of the launch contents of the two arguments. -/
abbrev result (c : Dev nD) : S8192x4096.Idx → EReal := linearT (xs m c) (BlockReads.signs m c)

/-- Point n's addend at (r, o): block n % 4 of the contraction of x's row 1024 (n / 16) + r against the sign matrix's
    row 1024 ((n / 4) % 4) + o. -/
theorem addend_apply (c : Dev nD) (n : ℕ) (hn : n < cfg0.N) (r o : Fin 1024) (R : Fin 8192) (O : Fin 4096) (b : Fin 4)
    (hR : R.val = n / 16 * 1024 + r.val) (hO : O.val = n / 4 % 4 * 1024 + o.val) (hb : b.val = n % 4) :
    Accumulate.addend m c n (ix2 r o)
      = ∑ k : Fin 1024, xs m c (ix2 R (pos b k)) * BlockReads.signs m c (ix2 O (pos b k)) := by
  have e : win0_0.index (⟨n, hn⟩ : Fin cfg0.N) (0 : Fin 2) = n / 16 ∧ win0_0.index (⟨n, hn⟩ : Fin cfg0.N) (1 : Fin 2) = n % 4
      ∧ win0_1.index (⟨n, hn⟩ : Fin cfg0.N) (0 : Fin 2) = n % 4 ∧ win0_1.index (⟨n, hn⟩ : Fin cfg0.N) (1 : Fin 2) = n / 4 % 4
      ∧ win0_2.index (⟨n, hn⟩ : Fin cfg0.N) (0 : Fin 2) = n / 16 ∧ win0_2.index (⟨n, hn⟩ : Fin cfg0.N) (1 : Fin 2) = n / 4 % 4 :=
    BlockReads.block_indices ⟨n, hn⟩
  obtain ⟨e0, e1, e2, e3, -, -⟩ := e
  rw [Accumulate.addend_of_lt m c n hn]
  refine (Payload.blockDot_apply (iblk m c 0 (⟨n, hn⟩ : Fin cfg0.N)) (iblk m c 1 (⟨n, hn⟩ : Fin cfg0.N)) r o).trans ?_
  refine Finset.sum_congr rfl fun k _ => ?_
  have hpos : (pos b k).val = n % 4 * 1024 + k.val := by
    show b.val * 1024 + k.val = _
    rw [hb]
  exact congrArg₂ (fun a b : EReal => a * b)
    (BlockReads.left_block_apply m c ⟨n, hn⟩ r k R (pos b k) (by rw [e0]; exact hR) (by rw [e1]; exact hpos))
    (BlockReads.right_block_apply m c ⟨n, hn⟩ k o (pos b k) O (by rw [e2]; exact hpos) (by rw [e3]; exact hO))

/-- Zero plus the four addends of the run that ends at point t is the layer at the entry the block places (r, o) at. -/
theorem run_sum_eq (c : Dev nD) (t : Fin cfg0.N) (h3 : t.val % 4 = 3) (r o : Fin 1024)
    (hRlt : t.val / 16 * 1024 + r.val < 8192) (hOlt : t.val / 4 % 4 * 1024 + o.val < 4096) :
    (0 : EReal) + ∑ s ∈ Finset.range 4, Accumulate.addend m c (4 * (t.val / 4) + s) (ix2 r o)
      = result m c (ix2 (⟨t.val / 16 * 1024 + r.val, hRlt⟩ : Fin 8192) (⟨t.val / 4 % 4 * 1024 + o.val, hOlt⟩ : Fin 4096)) := by
  have hN : t.val < 128 := lt_of_lt_of_eq t.isLt (show cfg0.N = 128 from N_0)
  rw [zero_add, Finset.sum_range]
  refine Eq.trans ?_ (linearT_blocks _ _ _).symm
  refine Finset.sum_congr rfl fun b _ => ?_
  have hb : b.val < 4 := b.isLt
  exact addend_apply m c (4 * (t.val / 4) + b.val)
    (lt_of_lt_of_eq (by omega : 4 * (t.val / 4) + b.val < 128) (show 128 = cfg0.N from N_0.symm)) r o
    ⟨t.val / 16 * 1024 + r.val, hRlt⟩ ⟨t.val / 4 % 4 * 1024 + o.val, hOlt⟩ b
    (by show t.val / 16 * 1024 + r.val = (4 * (t.val / 4) + b.val) / 16 * 1024 + r.val; omega)
    (by show t.val / 4 % 4 * 1024 + o.val = (4 * (t.val / 4) + b.val) / 4 % 4 * 1024 + o.val; omega)
    (by omega)

/-- An index of the result array is in point t's block iff each coordinate is in the block's range on its axis. -/
theorem mem_block (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v4).slice (win0_2.rect t)).set ↔ _
  rw [View.set_slice_whole, Rect.mem_set_unit]
  exact Iff.rfl

/-- What a write-back writes is the window's block of the layer. -/
theorem written_back_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  have hN : t.val < 128 := lt_of_lt_of_eq t.isLt (show cfg0.N = 128 from N_0)
  obtain ⟨-, -, -, -, e4, e5⟩ := BlockReads.block_indices t
  funext j
  obtain ⟨r, o, rfl⟩ : ∃ (r o : Fin 1024), j = ix2 r o := ⟨j 0, j 1, eq_ix2 j⟩
  have hr : r.val < 1024 := r.isLt
  have ho : o.val < 1024 := o.isLt
  have hRlt : t.val / 16 * 1024 + r.val < 8192 := by omega
  have hOlt : t.val / 4 % 4 * 1024 + o.val < 4096 := by omega
  rw [View.read_apply]
  have hemb : ((cfg0.win 2).blk t).view.emb (ix2 r o)
      = ix2 (⟨t.val / 16 * 1024 + r.val, hRlt⟩ : Fin 8192) (⟨t.val / 4 % 4 * 1024 + o.val, hOlt⟩ : Fin 4096) :=
    funext fun a => Fin.ext (by
      match a with
      | ⟨0, _⟩ => show win0_2.index t (0 : Fin 2) * 1024 + 1 * r.val = t.val / 16 * 1024 + r.val; rw [e4]; omega
      | ⟨1, _⟩ => show win0_2.index t (1 : Fin 2) * 1024 + 1 * o.val = t.val / 4 % 4 * 1024 + o.val; rw [e5]; omega)
  rw [hemb]
  exact (Accumulate.written_back_apply m c t h3 (ix2 r o)).trans (run_sum_eq m c t h3 r o hRlt hOlt)

/-- Every index of the result array lies in the block some write-back writes. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hlt : 16 * ((i 0).val / 1024) + 4 * ((i 1).val / 1024) + 3 < cfg0.N := by
    rw [show cfg0.N = 128 from N_0]; omega
  have e : win0_2.index (⟨16 * ((i 0).val / 1024) + 4 * ((i 1).val / 1024) + 3, hlt⟩ : Fin cfg0.N) (0 : Fin 2)
        = (16 * ((i 0).val / 1024) + 4 * ((i 1).val / 1024) + 3) / 16
      ∧ win0_2.index (⟨16 * ((i 0).val / 1024) + 4 * ((i 1).val / 1024) + 3, hlt⟩ : Fin cfg0.N) (1 : Fin 2)
        = (16 * ((i 0).val / 1024) + 4 * ((i 1).val / 1024) + 3) / 4 % 4 :=
    ⟨(BlockReads.block_indices ⟨_, hlt⟩).2.2.2.2.1, (BlockReads.block_indices ⟨_, hlt⟩).2.2.2.2.2⟩
  refine ⟨⟨16 * ((i 0).val / 1024) + 4 * ((i 1).val / 1024) + 3, hlt⟩, (flush0_2 _).mpr (by show (16 * ((i 0).val / 1024) + 4 * ((i 1).val / 1024) + 3) % 4 = 3; omega), ?_⟩
  rw [mem_block]
  intro a
  match a with
  | ⟨0, _⟩ =>
    show win0_2.index _ (0 : Fin 2) * 1024 ≤ (i 0).val ∧ (i 0).val < win0_2.index _ (0 : Fin 2) * 1024 + 1024
    rw [e.1]; omega
  | ⟨1, _⟩ =>
    show win0_2.index _ (1 : Fin 2) * 1024 ≤ (i 1).val ∧ (i 1).val < win0_2.index _ (1 : Fin 2) * 1024 + 1024
    rw [e.2]; omega

/-- The result array after the run holds the layer. -/
theorem final (c : Dev nD) : (dats m 0 c).arrAt 2 cfg0.N = result m c :=
  (dats m 0 c).arrAt_eq_of_cover 2 (result m c) (written_back_eq m c) covered

/-- The kernel's run: the result array at the layer of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.Reference.lean ====
/-
  The reference program's result, read entry by entry, is the layer.

  The reference rounds the weights to the nearest integer, reduces them to their sign, and contracts the second axis
  of x against the second axis of that sign matrix: at (t, o) the sum over i below 4096 of x(t, i) times the sign
  matrix's (o, i).
-/
import proofs.«125861_j28080496181413_2_alg».proof.Proof.Gen.ReferenceIdeal.Read
import proofs.«125861_j28080496181413_2_alg».proof.Proof.TernaryLinear

noncomputable section

open Idealize.ShloMosaic Idealize.ShloMosaic.ValueIdx

namespace Cert.ReferenceIdeal.RefValue

open Cert.ReferenceIdeal Cert.ReferenceIdeal.Gen Cert.TernaryLinear

/-- The reference's dot_general of x with the sign matrix is the layer, index by index. -/
theorem reference_eq (x0 : (⟨S8192x4096, .f32⟩ : BufTy).Contents (Elt Ideal)) (x1 : (⟨S4096x4096, .f32⟩ : BufTy).Contents (Elt Ideal)) :
    Read.val_main_v2 (F := Ideal) x0 x1
      = linearT x0 (Host.sign (F := Ideal) (φ := .f32) (Host.roundeven (F := Ideal) (φ := .f32) x1)) := by
  funext i
  rw [Read.val_main_v2_apply]
  unfold linearT
  refine Finset.sum_congr rfl fun k _ => ?_
  have el : Read.lidx_main_v2 i k = ix2 (i 0) k :=
    funext fun a => Fin.ext (by match a with | ⟨0, _⟩ => rfl | ⟨1, _⟩ => rfl)
  have er : Read.ridx_main_v2 i k = ix2 (i 1) k :=
    funext fun a => Fin.ext (by match a with | ⟨0, _⟩ => rfl | ⟨1, _⟩ => rfl)
  rw [el, er]
  rfl

end Cert.ReferenceIdeal.RefValue

end
-- ==== Proof.lean ====
/-
  The certificate of a ternary linear layer: out(t, o) = sum over i below 4096 of x(t, i) * s(o, i), where x has 8192 rows
  and 4096 columns and s is the 4096 x 4096 weight matrix rounded to the nearest integer and reduced to its sign.

  The reference computes it as one contraction of x against the sign matrix. The kernel has the host transpose the sign
  matrix first, and then walks a grid of 8 x 4 x 4 points: for each of the 8 x 4 blocks of 1024 x 1024 entries of the result
  it runs over the 4 blocks of 1024 positions of the contraction axis, adding each block's partial product of a block of x
  with a block of the transposed sign matrix into an accumulator that starts from zero, and writes the accumulator out
  after the fourth. Over the extended reals the changes of number format are the identity and every operation is exact,
  so the kernel's entry is zero plus the four partial contractions, and the reference's entry is the whole contraction:
  the same terms, regrouped, equal because addition is commutative and associative (no finiteness of the inputs is used).

  Modules: TernaryLinear (the layer and the regrouping law, over LibBlockSum), Payload (the body's two stored values at an
  index), Pieces (what each control case of the body leaves), Accumulate (the accumulator after each point, the block a
  write-back writes), BlockReads (the windows' blocks in terms of the arguments), Result (the result array is the layer),
  Reference (the reference's result is the layer). Here: the three frames, the idealization's conjunct (the ideal pass
  rewrote nothing), and the equality of the two results.
-/
import proofs.«125861_j28080496181413_2_alg».proof.Defs
import proofs.«125861_j28080496181413_2_alg».proof.Proof.Gen.Kernel
import proofs.«125861_j28080496181413_2_alg».proof.Proof.Gen.Kernel.Frame
import proofs.«125861_j28080496181413_2_alg».proof.Proof.Gen.KernelIdeal
import proofs.«125861_j28080496181413_2_alg».proof.Proof.Gen.KernelIdeal.Frame
import proofs.«125861_j28080496181413_2_alg».proof.Proof.Gen.KernelIdeal.Value
import proofs.«125861_j28080496181413_2_alg».proof.Proof.Gen.ReferenceIdeal
import proofs.«125861_j28080496181413_2_alg».proof.Proof.Gen.ReferenceIdeal.Run
import proofs.«125861_j28080496181413_2_alg».proof.Proof.Gen.ReferenceIdeal.Read
import proofs.«125861_j28080496181413_2_alg».proof.Proof.Gen.Pre_finite_inputs
import proofs.«125861_j28080496181413_2_alg».proof.Proof.Result
import proofs.«125861_j28080496181413_2_alg».proof.Proof.Reference
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on x and on the weights, both programs end with the layer of those
    arguments in their result arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
